-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x8 .f32) (main_arg5 : FVec F S4096 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4x2048x4096 .f32) (main_arg2 : FVec F S4096x4096 .f32) (main_arg3 : FVec F S8x4096 .f32) (main_arg4 : FVec F S4096x8 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x4096 .f32 := Host.absf main_arg1
  let main_cst_0 : FVec F S_ .f32 := constant S_ .f32 0x7F800000#32
  let main_v5 : FVec F S4x2048x4096 .f32 := broadcastInDim S4x2048x4096 ![] bcast_S_S4x2048x4096 main_cst_0
  let main_v6 : IVec S4x2048x4096 1 := cmpf .olt main_v4 main_v5
  let main_c_1 : IVec S_ 1 := constantI S_ 1 1#1
  let main_v7 : IVec S_ 1 := (fun x v => Host.reduce IntOp.andi x v reducesTo_S4x2048x4096_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S4096x1 : Shape := ⟨2, ![4096, 1]⟩
abbrev S512x4096 : Shape := ⟨2, ![512, 4096]⟩
abbrev S512x8 : Shape := ⟨2, ![512, 8]⟩
abbrev S512x1 : Shape := ⟨2, ![512, 1]⟩
abbrev S1x4096 : Shape := ⟨2, ![1, 4096]⟩
abbrev S512 : Shape := ⟨1, ![512]⟩
abbrev S8192x4096 : Shape := ⟨2, ![8192, 4096]⟩
abbrev S256x4096 : Shape := ⟨2, ![256, 4096]⟩
abbrev S256x8 : Shape := ⟨2, ![256, 8]⟩

abbrev nBuf : Space → Nat
  | .hbm => 14
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096x4096, .f32⟩
  | .hbm, ⟨3, _⟩ => ⟨S8x4096, .f32⟩
  | .hbm, ⟨4, _⟩ => ⟨S4096x8, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S8x4096, .f32⟩
  | .hbm, ⟨12, _⟩ => ⟨S8192x4096, .f32⟩
  | .hbm, ⟨13, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S8x4096, .f32⟩
  | .local _ .vmem, ⟨3, _⟩ => ⟨S512x8, .f32⟩
  | .local _ .vmem, ⟨4, _⟩ => ⟨S512x8, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S8x4096, .f32⟩
  | .local _ .vmem, ⟨14, _⟩ => ⟨S8x4096, .f32⟩
  | .local _ .vmem, ⟨15, _⟩ => ⟨S1x4096, .f32⟩
  | .local _ .vmem, ⟨16, _⟩ => ⟨S256x4096, .f32⟩
  | .local _ .vmem, ⟨17, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4096_S4096x1 : S4096.ShapeCasts S4096x1
  inb_S512x4096_S512x4096_0_0 : ∀ a, (![0, 0] : Fin 2 → Nat) a + S512x4096.size a ≤ S512x4096.size a
  h_S512x4096 : 0 < S512x4096.numel
  inb_S8x4096_S8x4096_0_0 : ∀ a, (![0, 0] : Fin 2 → Nat) a + S8x4096.size a ≤ S8x4096.size a
  h_S8x4096 : 0 < S8x4096.numel
  inb_S512x8_S512x8_0_0 : ∀ a, (![0, 0] : Fin 2 → Nat) a + S512x8.size a ≤ S512x8.size a
  h_S512x8 : 0 < S512x8.numel
  slices_S512x8_o0_0_S512x1 : S512x8.Slices ![0, 0] S512x1
  slices_S8x4096_o0_0_S1x4096 : S8x4096.Slices ![0, 0] S1x4096
  broadcasts_S512x1_S512x4096 : S512x1.Broadcasts S512x4096
  broadcasts_S1x4096_S512x4096 : S1x4096.Broadcasts S512x4096
  slices_S512x8_o0_1_S512x1 : S512x8.Slices ![0, 1] S512x1
  slices_S8x4096_o1_0_S1x4096 : S8x4096.Slices ![1, 0] S1x4096
  slices_S512x8_o0_2_S512x1 : S512x8.Slices ![0, 2] S512x1
  slices_S8x4096_o2_0_S1x4096 : S8x4096.Slices ![2, 0] S1x4096
  slices_S512x8_o0_3_S512x1 : S512x8.Slices ![0, 3] S512x1
  slices_S8x4096_o3_0_S1x4096 : S8x4096.Slices ![3, 0] S1x4096
  slices_S512x8_o0_4_S512x1 : S512x8.Slices ![0, 4] S512x1
  slices_S8x4096_o4_0_S1x4096 : S8x4096.Slices ![4, 0] S1x4096
  slices_S512x8_o0_5_S512x1 : S512x8.Slices ![0, 5] S512x1
  slices_S8x4096_o5_0_S1x4096 : S8x4096.Slices ![5, 0] S1x4096
  slices_S512x8_o0_6_S512x1 : S512x8.Slices ![0, 6] S512x1
  slices_S8x4096_o6_0_S1x4096 : S8x4096.Slices ![6, 0] S1x4096
  slices_S512x8_o0_7_S512x1 : S512x8.Slices ![0, 7] S512x1
  slices_S8x4096_o7_0_S1x4096 : S8x4096.Slices ![7, 0] S1x4096
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S4096x1_S1x4096 : S4096x1.ShapeCasts S1x4096
  shapeCasts_S4x2048x4096_S8192x4096 : S4x2048x4096.ShapeCasts S8192x4096
  transposes_S4096x8_S8x4096_1_0 : S4096x8.Transposes [1, 0] S8x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S8x4096_S256x8_1_1_0_0_n_n_wf : DotDims.WF S256x4096 S8x4096 S256x8 [1] [1] [0] [0] [] []
  dot_S256x8_S8x4096_S256x4096_1_0_0_1_n_n_wf : DotDims.WF S256x8 S8x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .f32 = 32 ∨ (Rect.block (s := S8x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S4096x8.size a
  hwx0_2 : ∀ i : grid0.Coords, EltTy.bits .f32 = 32 ∨ (Rect.block (s := S4096x8) S512x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .f32 = 32 ∨ (Rect.block (s := S8192x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x4096.size a ≤ S8x4096.size a
  hwx1_2 : ∀ i : grid1.Coords, EltTy.bits .f32 = 32 ∨ (Rect.block (s := S8x4096) S8x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x4096.size a ≤ S8x4096.size a
  hwx1_3 : ∀ i : grid1.Coords, EltTy.bits .f32 = 32 ∨ (Rect.block (s := S8x4096) S8x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S8192x4096.size a
  hwx1_5 : ∀ i : grid1.Coords, EltTy.bits .f32 = 32 ∨ (Rect.block (s := S8192x4096) S256x4096.size (cc1_transform_5 i) (hinb1_5 i)).WholeWords (EltTy.packing .f32)

variable [Facts₀]

def dot_S256x4096_S8x4096_S256x8_1_1_0_0_n_n : DotDims S256x4096 S8x4096 S256x8 where
  lhsContracting := [1]
  rhsContracting := [1]
  lhsNonContracting := [0]
  rhsNonContracting := [0]
  lhsBatch := []
  rhsBatch := []
  wf := dot_S256x4096_S8x4096_S256x8_1_1_0_0_n_n_wf
def dot_S256x8_S8x4096_S256x4096_1_0_0_1_n_n : DotDims S256x8 S8x4096 S256x4096 where
  lhsContracting := [1]
  rhsContracting := [0]
  lhsNonContracting := [0]
  rhsNonContracting := [1]
  lhsBatch := []
  rhsBatch := []
  wf := dot_S256x8_S8x4096_S256x4096_1_0_0_1_n_n_wf

abbrev win0_0 : Pipeline.Window sig grid0 :=
  Pipeline.Window.ofSpec (Memref.whole main_arg2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S8x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S4x2048x8 : Shape := ⟨3, ![4, 2048, 8]⟩
abbrev S_ : Shape := ⟨0, ![]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096x4096, .f32⟩
  | .hbm, ⟨3, _⟩ => ⟨S8x4096, .f32⟩
  | .hbm, ⟨4, _⟩ => ⟨S4096x8, .f32⟩
  | .hbm, ⟨5, _⟩ => ⟨S4096, .f32⟩
  | .hbm, ⟨6, _⟩ => ⟨S4x2048x8, .f32⟩
  | .hbm, ⟨7, _⟩ => ⟨S4x2048x4096, .f32⟩
  | .hbm, ⟨8, _⟩ => ⟨S_, .f32⟩
  | .hbm, ⟨9, _⟩ => ⟨S4x2048x4096, .f32⟩
  | .hbm, ⟨10, _⟩ => ⟨S4x2048x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4x2048x4096, .f32⟩
  | .hbm, ⟨25, _⟩ => ⟨S1x1x4096, .f32⟩
  | .hbm, ⟨26, _⟩ => ⟨S4x2048x4096, .f32⟩
  | .hbm, ⟨27, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []
  dot_S4096x8_S8x4096_S4096x4096_1_0_0_1_n_n_wf : DotDims.WF S4096x8 S8x4096 S4096x4096 [1] [0] [0] [1] [] []

variable [Facts₀]

def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf
def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf

class Facts : Prop extends Facts₀ where

variable [Facts]
-- ==== Proof.Spec.lean ====
/-
  The function both programs compute, entry by entry, on the extended reals.

  The data: activations X and a base output Y, both [4, 2048, 4096]; a base weight W, [4096, 4096]; the two factors of a
  rank-8 update of it, A [8, 4096] and B [4096, 8]; one magnitude g per output channel, [4096].

  * The updated weight is W + 2·(B A): at (o, i) it is W[o,i] + (∑ r, B[o,r]·A[r,i])·2.
  * Output channel o is rescaled by its magnitude over the length of row o of the updated weight, plus a tiny constant:
    g[o] / (√(∑ i, U[o,i]²) + ε).
  * The low-rank path sends a row x of X through A and then B: ∑ r, (∑ i, x[i]·A[r,i])·B[o,r].
  * The result at (b, s, o) is (Y[b,s,o] + 2·lowrank) · scale[o].

  The scalars 2 and ε are kept as the f32 words both programs spell them with; nothing here evaluates them.
-/
import Idealize.ShloMosaic.PureOps.Ideal
import Idealize.ShloMosaic.Lib.ValueIdx

noncomputable section

open scoped BigOperators

namespace Cert.Dora

open Idealize.ShloMosaic Idealize.ShloMosaic.ValueIdx

/-- The f32 word of 2.0 on the extended reals. -/
abbrev two : EReal := Ideal.ofBits .f32 0x40000000#32
/-- The f32 word nearest 1e-8 on the extended reals. -/
abbrev tiny : EReal := Ideal.ofBits .f32 0x322BCC77#32

/-- Entry (o, i) of the updated weight W + 2·(B A). -/
def updated (W : (⟨2, ![4096, 4096]⟩ : Shape).Idx → EReal) (A : (⟨2, ![8, 4096]⟩ : Shape).Idx → EReal)
    (B : (⟨2, ![4096, 8]⟩ : Shape).Idx → EReal) (o i : Fin 4096) : EReal :=
  W (ix2 o i) + (∑ r : Fin 8, B (ix2 o r) * A (ix2 r i)) * two

/-- The factor of output channel o: a magnitude `go` over (the length of row o of the updated weight, plus ε). -/
def rowScale (W : (⟨2, ![4096, 4096]⟩ : Shape).Idx → EReal) (A : (⟨2, ![8, 4096]⟩ : Shape).Idx → EReal)
    (B : (⟨2, ![4096, 8]⟩ : Shape).Idx → EReal) (o : Fin 4096) (go : EReal) : EReal :=
  Ideal.div go (Ideal.sqrt (∑ i : Fin 4096, updated W A B o i * updated W A B o i) + tiny)

/-- One row x through the two factors, at output channel o. -/
def lowRank (x : Fin 4096 → EReal) (A : (⟨2, ![8, 4096]⟩ : Shape).Idx → EReal)
    (B : (⟨2, ![4096, 8]⟩ : Shape).Idx → EReal) (o : Fin 4096) : EReal :=
  ∑ r : Fin 8, (∑ i : Fin 4096, x i * A (ix2 r i)) * B (ix2 o r)

/-- The result at batch b, position s, output channel o. -/
def resultAt (X Y : (⟨3, ![4, 2048, 4096]⟩ : Shape).Idx → EReal) (W : (⟨2, ![4096, 4096]⟩ : Shape).Idx → EReal)
    (A : (⟨2, ![8, 4096]⟩ : Shape).Idx → EReal) (B : (⟨2, ![4096, 8]⟩ : Shape).Idx → EReal)
    (g : (⟨1, ![4096]⟩ : Shape).Idx → EReal) (b : Fin 4) (s : Fin 2048) (o : Fin 4096) : EReal :=
  (Y (ix3 b s o) + lowRank (fun i => X (ix3 b s i)) A B o * two) * rowScale W A B o (g (ix1 o))

/-- The whole result array. -/
def result (X Y : (⟨3, ![4, 2048, 4096]⟩ : Shape).Idx → EReal) (W : (⟨2, ![4096, 4096]⟩ : Shape).Idx → EReal)
    (A : (⟨2, ![8, 4096]⟩ : Shape).Idx → EReal) (B : (⟨2, ![4096, 8]⟩ : Shape).Idx → EReal)
    (g : (⟨1, ![4096]⟩ : Shape).Idx → EReal) : (⟨3, ![4, 2048, 4096]⟩ : Shape).Idx → EReal :=
  fun j => resultAt X Y W A B g (j 0) (j 1) (j 2)

theorem result_ix3 (X Y : (⟨3, ![4, 2048, 4096]⟩ : Shape).Idx → EReal) (W : (⟨2, ![4096, 4096]⟩ : Shape).Idx → EReal)
    (A : (⟨2, ![8, 4096]⟩ : Shape).Idx → EReal) (B : (⟨2, ![4096, 8]⟩ : Shape).Idx → EReal)
    (g : (⟨1, ![4096]⟩ : Shape).Idx → EReal) (b : Fin 4) (s : Fin 2048) (o : Fin 4096) :
    result X Y W A B g (ix3 b s o) = resultAt X Y W A B g b s o := rfl

/-- A sum of eight terms accumulated one at a time from zero is the sum over the eight. -/
theorem sum_eight_from_zero (f : Fin 8 → EReal) :
    (0 : EReal) + f 0 + f 1 + f 2 + f 3 + f 4 + f 5 + f 6 + f 7 = ∑ r : Fin 8, f r := by
  rw [Fin.sum_univ_eight, zero_add]

end Cert.Dora

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.NormBody.lean ====
/-
  The first kernel's body, read at one entry.

  On a block of 512 rows the body holds the block w of W (512 × 4096), all of A (8 × 4096), the block b of B (512 × 8) and
  the block of magnitudes as a column (512 × 1).  It builds the rank-8 product b·A one rank-one term at a time — column r of
  b spread over the columns times row r of A spread over the rows, added from zero for r = 0 … 7 —, doubles it, adds w,
  squares, sums each row, takes the root, adds ε and divides the magnitude by the result.  So row p of what it stores is
  magnitude[p] / (√(∑ i, (w[p,i] + (∑ r, b[p,r]·A[r,i])·2)²) + ε).
-/
import proofs.«118239_j14869176779243_2_alg».proof.Proof.Gen.KernelIdeal.Skeleton
import proofs.«118239_j14869176779243_2_alg».proof.Proof.Spec
import proofs.«118239_j14869176779243_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dora.NormBody

open Idealize.ShloMosaic Idealize.ShloMosaic.ValueIdx Cert.KernelIdeal Cert.KernelIdeal.Gen

/-- One rank-one term at (p, i): column `o` of the 512 × 8 block spread along the rows, times row `o` of A spread along the
    columns, is b[p, o] · A[o, i]. -/
theorem outer_apply (x1 : FVec Ideal S8x4096 .f32) (x2 : FVec Ideal S512x8 .f32) (o : Nat)
    (h2 : S512x8.Slices ![0, o] S512x1) (h1 : S8x4096.Slices ![o, 0] S1x4096)
    (hb2 : S512x1.Broadcasts S512x4096) (hb1 : S1x4096.Broadcasts S512x4096)
    (r : Fin 8) (hr : r.val = o) (p : Fin 512) (i : Fin 4096) :
    mulf (broadcastTo S512x4096 (extractStridedSlice S512x1 ![0, o] x2 h2) hb2)
        (broadcastTo S512x4096 (extractStridedSlice S1x4096 ![o, 0] x1 h1) hb1) (ix2 p i)
      = x2 (ix2 p r) * x1 (ix2 r i) := by
  rw [mulf_apply, broadcastTo_a1_ab_apply, broadcastTo_1b_ab_apply,
    slice2_axis1_apply o x2 h2 p (0 : Fin 1) r (by rw [hr]; rfl),
    slice2_axis0_apply o x1 h1 (0 : Fin 1) i r (by rw [hr]; rfl)]

/-- The eight terms added from zero: the rank-8 product of the blocks at (p, i). -/
theorem product_apply (x1 : FVec Ideal S8x4096 .f32) (x2 : FVec Ideal S512x8 .f32) (p : Fin 512) (i : Fin 4096) :
    k0_pay2 (F := Ideal) x1 x2 (ix2 p i) = ∑ r : Fin 8, x2 (ix2 p r) * x1 (ix2 r i) := by
  unfold k0_pay2
  simp only [addf_apply]
  rw [outer_apply x1 x2 0 _ _ _ _ (0 : Fin 8) rfl p i, outer_apply x1 x2 1 _ _ _ _ (1 : Fin 8) rfl p i,
    outer_apply x1 x2 2 _ _ _ _ (2 : Fin 8) rfl p i, outer_apply x1 x2 3 _ _ _ _ (3 : Fin 8) rfl p i,
    outer_apply x1 x2 4 _ _ _ _ (4 : Fin 8) rfl p i, outer_apply x1 x2 5 _ _ _ _ (5 : Fin 8) rfl p i,
    outer_apply x1 x2 6 _ _ _ _ (6 : Fin 8) rfl p i, outer_apply x1 x2 7 _ _ _ _ (7 : Fin 8) rfl p i]
  rw [broadcast_apply]
  show Ideal.ofBits .f32 0x00000000#32 + _ + _ + _ + _ + _ + _ + _ + _ = _
  rw [Ideal.ofBits_zero_f32]
  exact Cert.Dora.sum_eight_from_zero fun r => x2 (ix2 p r) * x1 (ix2 r i)

/-- A row sum of a 512 × 4096 array taken by the lane reduction from the zero accumulator. -/
theorem rowSum_apply (v : FVec Ideal S512x4096 .f32) (h : S512x4096.Reduces [1] S512) (hφ : FKind.Formats .f32)
    (hacc : (0x00000000#32 : BitVec 32) = 0x00000000#32) (p : Fin 512) :
    multiReduction .add [1] S512 v 0x00000000#32 h hφ hacc (ix1 p) = ∑ i : Fin 4096, v (ix2 p i) := by
  refine (Ideal.multiReduction_add_single v 0x00000000#32 h hφ hacc (ix1 p)).trans ?_
  refine Finset.sum_congr rfl fun i _ => congrArg v ?_
  funext a; apply Fin.ext
  match a with
  | ⟨0, _⟩ => rfl
  | ⟨1, _⟩ => rfl

/-- What the body stores, at row p (the one column is u = 0): the magnitude over the row length of the updated block plus ε. -/
theorem stored_apply (x0 : FVec Ideal S512x4096 .f32) (x1 : FVec Ideal S8x4096 .f32) (x2 : FVec Ideal S512x8 .f32)
    (x3 : FVec Ideal S512x1 .f32) (p : Fin 512) (u : Fin 1) :
    k0_pay1 (F := Ideal) x0 (k0_pay2 (F := Ideal) x1 x2) x3 (ix2 p u)
      = Ideal.div (x3 (ix2 p u))
          (Ideal.sqrt (∑ i : Fin 4096, (x0 (ix2 p i) + (∑ r : Fin 8, x2 (ix2 p r) * x1 (ix2 r i)) * Cert.Dora.two)
              * (x0 (ix2 p i) + (∑ r : Fin 8, x2 (ix2 p r) * x1 (ix2 r i)) * Cert.Dora.two)) + Cert.Dora.tiny) := by
  unfold k0_pay1
  rw [divf_apply, shapeCast_self]
  refine congrArg (Ideal.div (x3 (ix2 p u))) ?_
  rw [addf_apply, broadcast_apply]
  refine congrArg (· + Cert.Dora.tiny) ?_
  show Ideal.sqrt (shapeCast S512x1 _ _ (ix2 p u)) = _
  refine congrArg Ideal.sqrt ?_
  rw [shapeCast_a_a1_apply, rowSum_apply]
  refine Finset.sum_congr rfl fun i _ => ?_
  rw [mulf_apply, addf_apply, mulf_apply, broadcast_apply, product_apply]
  rfl

end Cert.Dora.NormBody

end
-- ==== Proof.NormBlocks.lean ====
/-
  From the first kernel's blocks to the whole column of scales.

  The grid has 8 points; point t holds rows 512·t … 512·t + 511 of W, of B and of the magnitude column, and all of A, and writes
  rows 512·t … 512·t + 511 of the output column.  Row p of what it writes is the scale of output channel 512·t + p computed
  from those rows (the body read at an entry), which is the scale of that channel computed from the whole arrays, because a
  channel's scale reads only its own row of W, of B and of the magnitudes.  The 8 blocks tile the 4096 rows, so the column
  ends holding every channel's scale.
-/
import proofs.«118239_j14869176779243_2_alg».proof.Proof.Gen.KernelIdeal.Frame
import proofs.«118239_j14869176779243_2_alg».proof.Proof.NormBody
import Idealize.ShloMosaic.Lib.Pipeline.Value

noncomputable section

open scoped BigOperators

namespace Cert.Dora.NormBlocks

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The column of scales as one function of the whole arrays: row o holds channel o's scale, from the magnitude in row o of
    the magnitude column. -/
def scales (W : S4096x4096.Idx → Elt Ideal .f32) (A : S8x4096.Idx → Elt Ideal .f32) (B : S4096x8.Idx → Elt Ideal .f32)
    (g : S4096x1.Idx → Elt Ideal .f32) : S4096x1.Idx → Elt Ideal .f32 :=
  fun j => Cert.Dora.rowScale W A B (j 0) (g j)

/-- Where each window's block sits at point t: the row-blocked windows (W, B, the magnitudes, the output) at block row t,
    A whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of point t's block of W is row 512·t + p of W. -/
theorem block_W (c : Dev nD) (t : Fin cfg0.N) (p : Fin 512) (i : Fin 4096) (o : Fin 4096) (ho : o.val = t.val * 512 + p.val) :
    iblk0 V c 0 t (ix2 p i) = V c main_arg2 (ix2 o i) := by
  obtain ⟨e0, e1, -⟩ := idx_facts t
  show V c main_arg2 (((cfg0.win 0).blk t).view.emb (ix2 p i)) = V c main_arg2 (ix2 o i)
  refine congrArg (V c main_arg2) (funext fun a => Fin.ext ?_)
  match a with
  | ⟨0, _⟩ => show win0_0.index t (0 : Fin 2) * 512 + 1 * p.val = o.val; omega
  | ⟨1, _⟩ => show win0_0.index t (1 : Fin 2) * 4096 + 1 * i.val = i.val; omega

/-- Point t's block of A is A. -/
theorem block_A (c : Dev nD) (t : Fin cfg0.N) (r : Fin 8) (i : Fin 4096) :
    iblk0 V c 1 t (ix2 r i) = V c main_arg3 (ix2 r i) := by
  obtain ⟨-, -, e0, e1, -⟩ := idx_facts t
  show V c main_arg3 (((cfg0.win 1).blk t).view.emb (ix2 r i)) = V c main_arg3 (ix2 r i)
  refine congrArg (V c main_arg3) (funext fun a => Fin.ext ?_)
  match a with
  | ⟨0, _⟩ => show win0_1.index t (0 : Fin 2) * 8 + 1 * r.val = r.val; omega
  | ⟨1, _⟩ => show win0_1.index t (1 : Fin 2) * 4096 + 1 * i.val = i.val; omega

/-- Row p of point t's block of B is row 512·t + p of B. -/
theorem block_B (c : Dev nD) (t : Fin cfg0.N) (p : Fin 512) (r : Fin 8) (o : Fin 4096) (ho : o.val = t.val * 512 + p.val) :
    iblk0 V c 2 t (ix2 p r) = V c main_arg4 (ix2 o r) := by
  obtain ⟨-, -, -, -, e0, e1, -⟩ := idx_facts t
  show V c main_arg4 (((cfg0.win 2).blk t).view.emb (ix2 p r)) = V c main_arg4 (ix2 o r)
  refine congrArg (V c main_arg4) (funext fun a => Fin.ext ?_)
  match a with
  | ⟨0, _⟩ => show win0_2.index t (0 : Fin 2) * 512 + 1 * p.val = o.val; omega
  | ⟨1, _⟩ => show win0_2.index t (1 : Fin 2) * 8 + 1 * r.val = r.val; omega

/-- Row p of point t's block of the magnitude column is row 512·t + p of it. -/
theorem block_g (c : Dev nD) (t : Fin cfg0.N) (p : Fin 512) (u : Fin 1) (o : Fin 4096) (ho : o.val = t.val * 512 + p.val) :
    iblk0 V c 3 t (ix2 p u) = V c main_v0 (ix2 o (0 : Fin 1)) := by
  obtain ⟨-, -, -, -, -, -, e0, e1, -⟩ := idx_facts t
  show V c main_v0 (((cfg0.win 3).blk t).view.emb (ix2 p u)) = V c main_v0 (ix2 o (0 : Fin 1))
  refine congrArg (V c main_v0) (funext fun a => Fin.ext ?_)
  have hu : u.val = 0 := by omega
  match a with
  | ⟨0, _⟩ => show win0_3.index t (0 : Fin 2) * 512 + 1 * p.val = o.val; omega
  | ⟨1, _⟩ => show win0_3.index t (1 : Fin 2) * 1 + 1 * u.val = 0; omega

/-- WHAT POINT t WRITES BACK is block t of the column of scales of the arrays as the region finds them. -/
theorem flushed_eq (c : Dev nD) (t : Fin cfg0.N) :
    (dat0 V c).flushed 4 t
      = ((cfg0.win 4).blk t).view.read (Elt Ideal) (scales (V c main_arg2) (V c main_arg3) (V c main_arg4) (V c main_v0)) := by
  show (cfg0.win 4).cut (grid0.coords t) ((dat0 V c).after 4 t) = _
  rw [after0_4]
  unfold out0_4
  rw [View.canon_unit_zero hz]
  simp only [View.ld_unit_zero (S := S512x4096) hz, View.ld_unit_zero (S := S8x4096) hz, View.ld_unit_zero (S := S512x8) hz,
    View.ld_unit_zero (S := S512x1) hz]
  funext j
  obtain ⟨p, u, rfl⟩ : ∃ (p : Fin 512) (u : Fin 1), j = ix2 p u := ⟨j 0, j 1, eq_ix2 j⟩
  have hN : grid0.N = 8 := N_0
  have ht : t.val < 8 := hN ▸ t.isLt
  let o : Fin 4096 := ⟨t.val * 512 + p.val, by have := p.isLt; omega⟩
  have ho : o.val = t.val * 512 + p.val := rfl
  obtain ⟨-, -, -, -, -, -, -, -, e0, e1⟩ := idx_facts t
  have hu : u.val = 0 := by omega
  have hemb : ((cfg0.win 4).blk t).view.emb (ix2 p u) = ix2 o (0 : Fin 1) := by
    funext a; apply Fin.ext
    match a with
    | ⟨0, _⟩ => show win0_4.index t (0 : Fin 2) * 512 + 1 * p.val = o.val; omega
    | ⟨1, _⟩ => show win0_4.index t (1 : Fin 2) * 1 + 1 * u.val = 0; omega
  show k0_pay1 (F := Ideal) (iblk0 V c 0 t) (k0_pay2 (F := Ideal) (iblk0 V c 1 t) (iblk0 V c 2 t)) (iblk0 V c 3 t) (ix2 p u)
    = scales (V c main_arg2) (V c main_arg3) (V c main_arg4) (V c main_v0) (((cfg0.win 4).blk t).view.emb (ix2 p u))
  rw [hemb]
  refine (Cert.Dora.NormBody.stored_apply (iblk0 V c 0 t) (iblk0 V c 1 t) (iblk0 V c 2 t) (iblk0 V c 3 t) p u).trans ?_
  show _ = Cert.Dora.rowScale (V c main_arg2) (V c main_arg3) (V c main_arg4) o (V c main_v0 (ix2 o (0 : Fin 1)))
  unfold Cert.Dora.rowScale
  rw [block_g V c t p u o ho]
  refine congrArg (fun s : EReal => Ideal.div _ (Ideal.sqrt s + Cert.Dora.tiny)) (Finset.sum_congr rfl fun i _ => ?_)
  refine congrArg₂ (fun a b : EReal => a * b) ?_ ?_ <;>
  · unfold Cert.Dora.updated
    rw [block_W V c t p i o ho]
    refine congrArg (fun s : EReal => _ + s * Cert.Dora.two) (Finset.sum_congr rfl fun r _ => ?_)
    rw [block_B V c t p r o ho, block_A V c t r i]

/-- An index of the column is in point t's block iff each coordinate is in the block's range on its axis. -/
theorem mem_blk (t : Fin cfg0.N) (i : S4096x1.Idx) :
    i ∈ ((cfg0.win 4).blk t).view.set
      ↔ ∀ a : Fin 2, win0_4.index t a * S512x1.size a ≤ (i a).val ∧ (i a).val < win0_4.index t a * S512x1.size a + S512x1.size a := by
  show i ∈ ((View.whole main_v1).slice (win0_4.rect t)).set ↔ _
  rw [View.set_slice_whole, Rect.mem_set_unit]
  exact Iff.rfl

/-- THE COLUMN after the region: every channel's scale, from the arrays as the region finds them. -/
theorem column_eq (c : Dev nD) :
    (dat0 V c).arrAt 4 cfg0.N = scales (V c main_arg2) (V c main_arg3) (V c main_arg4) (V c main_v0) := by
  refine (dat0 V c).arrAt_eq_of_cover 4 _ (fun t _ => flushed_eq V c t) fun i => ?_
  have hN : grid0.N = 8 := N_0
  have hi0 : (i 0).val < 4096 := (i 0).isLt
  have hi1 : (i 1).val < 1 := (i 1).isLt
  let t : Fin cfg0.N := ⟨(i 0).val / 512, by show (i 0).val / 512 < grid0.N; rw [hN]; omega⟩
  have htv : t.val = (i 0).val / 512 := rfl
  obtain ⟨-, -, -, -, -, -, -, -, e0, e1⟩ := idx_facts t
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

end Cert.Dora.NormBlocks

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.MainBody.lean ====
/-
  The second kernel's body, read at one entry.

  On a block of 256 rows the body holds the block x of the activations and the block y of the base output (both 256 × 4096),
  all of A (8 × 4096), all of B transposed (8 × 4096) and the row of scales (1 × 4096).  It multiplies the rows of x with the
  rows of A (256 × 8), multiplies that by the transposed B (256 × 4096), doubles, adds y and multiplies each column by its
  scale.  Roundings to a shorter format between the steps are the identity on the extended reals.  So at (p, q) it stores
  (y[p,q] + (∑ r, (∑ i, x[p,i]·A[r,i])·Bᵀ[r,q])·2) · scale[0,q].
-/
import proofs.«118239_j14869176779243_2_alg».proof.Proof.Gen.KernelIdeal.Skeleton
import proofs.«118239_j14869176779243_2_alg».proof.Proof.Spec
import proofs.«118239_j14869176779243_2_alg».proof.Proof.LibDotRows
import proofs.«118239_j14869176779243_2_alg».proof.Proof.LibDotCols
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dora.MainBody

open Idealize.ShloMosaic Idealize.ShloMosaic.ValueIdx Cert.KernelIdeal Cert.KernelIdeal.Gen

/-- What the body stores at (p, q). -/
theorem stored_apply (x0 x1 : FVec Ideal S256x4096 .f32) (x2 x3 : FVec Ideal S8x4096 .f32) (x4 : FVec Ideal S1x4096 .f32)
    (p : Fin 256) (q : Fin 4096) :
    k1_pay1 (F := Ideal) x0 x1 x2 x3 x4 (ix2 p q)
      = (x1 (ix2 p q) + (∑ r : Fin 8, (∑ i : Fin 4096, x0 (ix2 p i) * x2 (ix2 r i)) * x3 (ix2 r q)) * Cert.Dora.two)
          * x4 (ix2 (0 : Fin 1) q) := by
  unfold k1_pay1
  simp only [shapeCast_self, matmul]
  rw [mulf_apply, addf_apply, mulf_apply, broadcast_apply, broadcastTo_1b_ab_apply,
    Cert.Lib.DotCols.matmul_cols_apply dot_S256x8_S8x4096_S256x4096_1_0_0_1_n_n rfl]
  simp only [truncf_apply, Cert.Lib.DotRows.matmul_rows_apply dot_S256x4096_S8x4096_S256x8_1_1_0_0_n_n rfl]
  rfl

end Cert.Dora.MainBody

end
-- ==== Proof.MainBlocks.lean ====
/-
  From the second kernel's blocks to its whole output.

  The grid has 32 points; point t holds rows 256·t … 256·t + 255 of the flattened activations and of the flattened base
  output, all of A, all of the transposed B and the whole row of scales, and writes rows 256·t … 256·t + 255 of the output.
  Entry (p, q) of what it writes (the body read at an entry) reads row p of its blocks only, so it is entry (256·t + p, q)
  of one function of the whole arrays.  The 32 blocks tile the 8192 rows, so the output ends holding that function.
-/
import proofs.«118239_j14869176779243_2_alg».proof.Proof.Gen.KernelIdeal.Frame
import proofs.«118239_j14869176779243_2_alg».proof.Proof.MainBody
import Idealize.ShloMosaic.Lib.Pipeline.Value

noncomputable section

open scoped BigOperators

namespace Cert.Dora.MainBlocks

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The output as one function of the whole arrays: at (m, q), row m of the base output plus twice row m of the activations
    through A and the transposed B, times the scale of column q. -/
def flat (x y : S8192x4096.Idx → Elt Ideal .f32) (A BT : S8x4096.Idx → Elt Ideal .f32) (sc : S1x4096.Idx → Elt Ideal .f32)
    (m : Fin 8192) (q : Fin 4096) : EReal :=
  (y (ix2 m q) + (∑ r : Fin 8, (∑ i : Fin 4096, x (ix2 m i) * A (ix2 r i)) * BT (ix2 r q)) * Cert.Dora.two)
    * sc (ix2 (0 : Fin 1) q)

def output (x y : S8192x4096.Idx → Elt Ideal .f32) (A BT : S8x4096.Idx → Elt Ideal .f32) (sc : S1x4096.Idx → Elt Ideal .f32) :
    S8192x4096.Idx → Elt Ideal .f32 :=
  fun j => flat x y A BT sc (j 0) (j 1)

/-- Where each window's block sits at point t: the row-blocked windows (activations, base output, output) at block row t,
    the three small operands whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the activations is row 256·t + p. -/
theorem block_x (c : Dev nD) (t : Fin cfg1.N) (p : Fin 256) (i : Fin 4096) (m : Fin 8192) (hm : m.val = t.val * 256 + p.val) :
    iblk1 V c 0 t (ix2 p i) = V c main_v3 (ix2 m i) := by
  obtain ⟨e0, e1, -⟩ := idx_facts t
  show V c main_v3 (((cfg1.win 0).blk t).view.emb (ix2 p i)) = V c main_v3 (ix2 m i)
  refine congrArg (V c main_v3) (funext fun a => Fin.ext ?_)
  match a with
  | ⟨0, _⟩ => show win1_0.index t (0 : Fin 2) * 256 + 1 * p.val = m.val; omega
  | ⟨1, _⟩ => show win1_0.index t (1 : Fin 2) * 4096 + 1 * i.val = i.val; omega

/-- Row p of point t's block of the base output is row 256·t + p. -/
theorem block_y (c : Dev nD) (t : Fin cfg1.N) (p : Fin 256) (q : Fin 4096) (m : Fin 8192) (hm : m.val = t.val * 256 + p.val) :
    iblk1 V c 1 t (ix2 p q) = V c main_v4 (ix2 m q) := by
  obtain ⟨-, -, e0, e1, -⟩ := idx_facts t
  show V c main_v4 (((cfg1.win 1).blk t).view.emb (ix2 p q)) = V c main_v4 (ix2 m q)
  refine congrArg (V c main_v4) (funext fun a => Fin.ext ?_)
  match a with
  | ⟨0, _⟩ => show win1_1.index t (0 : Fin 2) * 256 + 1 * p.val = m.val; omega
  | ⟨1, _⟩ => show win1_1.index t (1 : Fin 2) * 4096 + 1 * q.val = q.val; omega

/-- Point t's block of A is A. -/
theorem block_A (c : Dev nD) (t : Fin cfg1.N) (r : Fin 8) (i : Fin 4096) :
    iblk1 V c 2 t (ix2 r i) = V c main_arg3 (ix2 r i) := by
  obtain ⟨-, -, -, -, e0, e1, -⟩ := idx_facts t
  show V c main_arg3 (((cfg1.win 2).blk t).view.emb (ix2 r i)) = V c main_arg3 (ix2 r i)
  refine congrArg (V c main_arg3) (funext fun a => Fin.ext ?_)
  match a with
  | ⟨0, _⟩ => show win1_2.index t (0 : Fin 2) * 8 + 1 * r.val = r.val; omega
  | ⟨1, _⟩ => show win1_2.index t (1 : Fin 2) * 4096 + 1 * i.val = i.val; omega

/-- Point t's block of the transposed B is the transposed B. -/
theorem block_BT (c : Dev nD) (t : Fin cfg1.N) (r : Fin 8) (q : Fin 4096) :
    iblk1 V c 3 t (ix2 r q) = V c main_v5 (ix2 r q) := by
  obtain ⟨-, -, -, -, -, -, e0, e1, -⟩ := idx_facts t
  show V c main_v5 (((cfg1.win 3).blk t).view.emb (ix2 r q)) = V c main_v5 (ix2 r q)
  refine congrArg (V c main_v5) (funext fun a => Fin.ext ?_)
  match a with
  | ⟨0, _⟩ => show win1_3.index t (0 : Fin 2) * 8 + 1 * r.val = r.val; omega
  | ⟨1, _⟩ => show win1_3.index t (1 : Fin 2) * 4096 + 1 * q.val = q.val; omega

/-- Point t's block of the row of scales is the row of scales. -/
theorem block_sc (c : Dev nD) (t : Fin cfg1.N) (q : Fin 4096) :
    iblk1 V c 4 t (ix2 (0 : Fin 1) q) = V c main_v2 (ix2 (0 : Fin 1) q) := by
  obtain ⟨-, -, -, -, -, -, -, -, e0, e1, -⟩ := idx_facts t
  show V c main_v2 (((cfg1.win 4).blk t).view.emb (ix2 (0 : Fin 1) q)) = V c main_v2 (ix2 (0 : Fin 1) q)
  refine congrArg (V c main_v2) (funext fun a => Fin.ext ?_)
  match a with
  | ⟨0, _⟩ => show win1_4.index t (0 : Fin 2) * 1 + 1 * 0 = 0; omega
  | ⟨1, _⟩ => show win1_4.index t (1 : Fin 2) * 4096 + 1 * q.val = q.val; omega

/-- WHAT POINT t WRITES BACK is block t of the output function of the arrays as the region finds them. -/
theorem flushed_eq (c : Dev nD) (t : Fin cfg1.N) :
    (dat1 V c).flushed 5 t
      = ((cfg1.win 5).blk t).view.read (Elt Ideal)
          (output (V c main_v3) (V c main_v4) (V c main_arg3) (V c main_v5) (V c main_v2)) := by
  show (cfg1.win 5).cut (grid1.coords t) ((dat1 V c).after 5 t) = _
  rw [after1_5]
  unfold out1_5
  rw [View.canon_unit_zero hz]
  simp only [View.ld_unit_zero (S := S256x4096) hz, View.ld_unit_zero (S := S8x4096) hz, View.ld_unit_zero (S := S1x4096) hz]
  funext j
  obtain ⟨p, q, rfl⟩ : ∃ (p : Fin 256) (q : Fin 4096), j = ix2 p q := ⟨j 0, j 1, eq_ix2 j⟩
  have hN : grid1.N = 32 := N_1
  have ht : t.val < 32 := hN ▸ t.isLt
  let m : Fin 8192 := ⟨t.val * 256 + p.val, by have := p.isLt; omega⟩
  have hm : m.val = t.val * 256 + p.val := rfl
  obtain ⟨-, -, -, -, -, -, -, -, -, -, e0, e1⟩ := idx_facts t
  have hemb : ((cfg1.win 5).blk t).view.emb (ix2 p q) = ix2 m q := by
    funext a; apply Fin.ext
    match a with
    | ⟨0, _⟩ => show win1_5.index t (0 : Fin 2) * 256 + 1 * p.val = m.val; omega
    | ⟨1, _⟩ => show win1_5.index t (1 : Fin 2) * 4096 + 1 * q.val = q.val; omega
  show k1_pay1 (F := Ideal) (iblk1 V c 0 t) (iblk1 V c 1 t) (iblk1 V c 2 t) (iblk1 V c 3 t) (iblk1 V c 4 t) (ix2 p q)
    = output (V c main_v3) (V c main_v4) (V c main_arg3) (V c main_v5) (V c main_v2) (((cfg1.win 5).blk t).view.emb (ix2 p q))
  rw [hemb]
  refine (Cert.Dora.MainBody.stored_apply (iblk1 V c 0 t) (iblk1 V c 1 t) (iblk1 V c 2 t) (iblk1 V c 3 t) (iblk1 V c 4 t) p q).trans ?_
  show _ = flat (V c main_v3) (V c main_v4) (V c main_arg3) (V c main_v5) (V c main_v2) m q
  unfold flat
  rw [block_y V c t p q m hm, block_sc V c t q]
  refine congrArg (fun s : EReal => (_ + s * Cert.Dora.two) * _) (Finset.sum_congr rfl fun r _ => ?_)
  rw [block_BT V c t r q]
  refine congrArg (fun s : EReal => s * _) (Finset.sum_congr rfl fun i _ => ?_)
  rw [block_x V c t p i m hm, block_A V c t r i]

/-- An index of the output is in point t's block iff each coordinate is in the block's range on its axis. -/
theorem mem_blk (t : Fin cfg1.N) (i : S8192x4096.Idx) :
    i ∈ ((cfg1.win 5).blk t).view.set
      ↔ ∀ a : Fin 2, win1_5.index t a * S256x4096.size a ≤ (i a).val ∧ (i a).val < win1_5.index t a * S256x4096.size a + S256x4096.size a := by
  show i ∈ ((View.whole main_v6).slice (win1_5.rect t)).set ↔ _
  rw [View.set_slice_whole, Rect.mem_set_unit]
  exact Iff.rfl

/-- THE OUTPUT after the region: the output function of the arrays as the region finds them. -/
theorem output_eq (c : Dev nD) :
    (dat1 V c).arrAt 5 cfg1.N = output (V c main_v3) (V c main_v4) (V c main_arg3) (V c main_v5) (V c main_v2) := by
  refine (dat1 V c).arrAt_eq_of_cover 5 _ (fun t _ => flushed_eq V c t) fun i => ?_
  have hN : grid1.N = 32 := N_1
  have hi0 : (i 0).val < 8192 := (i 0).isLt
  have hi1 : (i 1).val < 4096 := (i 1).isLt
  let t : Fin cfg1.N := ⟨(i 0).val / 256, by show (i 0).val / 256 < grid1.N; rw [hN]; omega⟩
  have htv : t.val = (i 0).val / 256 := rfl
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 4096 ≤ (i 1).val ∧ (i 1).val < win1_5.index t (1 : Fin 2) * 4096 + 4096; omega

end Cert.Dora.MainBlocks

end
-- ==== Proof.LibColRow.lean ====
/-
  A column read as a row, and a row read as a column.

  General facts about a shape cast between the two rank-2 shapes [a, 1] and [1, a], for any extent `a` and any type of
  entries: both shapes list the same `a` entries in the same row-major order, entry `k` sitting at (k, 0) in the column and
  at (0, k) in the row, so the cast of a column read at (u, k) is the column at (k, 0), and the cast of a row read at
  (k, u) is the row at (0, k) — whatever the unit coordinate `u`, which can only be 0.  Each is the library's
  "a shape cast read at an index is the operand at the index of equal row-major position", with both positions
  written out: k · 1 + 0 on the column side and 0 · a + k on the row side.
-/
import Idealize.ShloMosaic.Lib.Pipeline.Value
import Idealize.ShloMosaic.Lib.ValueIdx
import Idealize.ShloMosaic.Lib.ValueLayout

namespace Cert.Lib.ColRow

open Idealize.ShloMosaic Idealize.ShloMosaic.ValueIdx

variable {α : Type}

/-- An `[a, 1]` array cast to `[1, a]` reads, at `(u, k)`, the operand at `(k, 0)`, whatever the unit coordinate `u`. -/
theorem shapeCast_col_row_apply {a : ℕ} (x : (⟨2, ![a, 1]⟩ : Shape).Idx → α)
    (h : (⟨2, ![a, 1]⟩ : Shape).ShapeCasts ⟨2, ![1, a]⟩) (u : Fin 1) (k : Fin a) :
    shapeCast ⟨2, ![1, a]⟩ x h (ix2 u k) = x (ix2 k (0 : Fin 1)) :=
  shapeCast_apply x h _ _ (by
    have hu : u.val = 0 := by omega
    rw [Shape.rowMajor_val_two, Shape.rowMajor_val_two]
    show k.val * 1 + 0 = u.val * a + k.val
    rw [hu, Nat.zero_mul, Nat.zero_add, Nat.mul_one, Nat.add_zero])

/-- A `[1, a]` array cast to `[a, 1]` reads, at `(k, u)`, the operand at `(0, k)`, whatever the unit coordinate `u`. -/
theorem shapeCast_row_col_apply {a : ℕ} (x : (⟨2, ![1, a]⟩ : Shape).Idx → α)
    (h : (⟨2, ![1, a]⟩ : Shape).ShapeCasts ⟨2, ![a, 1]⟩) (k : Fin a) (u : Fin 1) :
    shapeCast ⟨2, ![a, 1]⟩ x h (ix2 k u) = x (ix2 (0 : Fin 1) k) :=
  shapeCast_apply x h _ _ (by
    have hu : u.val = 0 := by omega
    rw [Shape.rowMajor_val_two, Shape.rowMajor_val_two]
    show 0 * a + k.val = k.val * 1 + u.val
    rw [hu, Nat.zero_mul, Nat.zero_add, Nat.mul_one, Nat.add_zero])

end Cert.Lib.ColRow
-- ==== Proof.Layout.lean ====
/-
  The two kernels joined: the layout steps between them, read at an entry.

  Around the kernels the program only re-lays arrays.  The activations and the base output, [4, 2048, 4096], are flattened to
  [8192, 4096]: row 2048·b + s of the flat array is row (b, s).  B is transposed.  The magnitudes [4096] are stood up as a column
  [4096, 1] for the first kernel, whose column of scales is laid down as a row [1, 4096] for the second; the second kernel's
  flat output is cut back to [4, 2048, 4096].  Reading each step at an entry, the second kernel's output function at the
  re-laid arrays, cut back, is the result entry by entry.
-/
import proofs.«118239_j14869176779243_2_alg».proof.Proof.NormBlocks
import proofs.«118239_j14869176779243_2_alg».proof.Proof.MainBlocks
import proofs.«118239_j14869176779243_2_alg».proof.Proof.LibColRow
import proofs.«118239_j14869176779243_2_alg».proof.Proof.LibColumns
import Idealize.ShloMosaic.Lib.ValueLayout
import Idealize.ShloMosaic.Lib.Pipeline.Value

noncomputable section

open scoped BigOperators

namespace Cert.Dora.Layout

open Idealize.ShloMosaic Idealize.ShloMosaic.ValueIdx Cert.KernelIdeal

/-- Flattening the two leading axes: row m = 2048·b + s of the flat array is row (b, s). -/
theorem flatten_apply {α : Type} (X : (⟨3, ![4, 2048, 4096]⟩ : Shape).Idx → α)
    (h : (⟨3, ![4, 2048, 4096]⟩ : Shape).ShapeCasts ⟨2, ![8192, 4096]⟩) (b : Fin 4) (s : Fin 2048) (i : Fin 4096) (m : Fin 8192)
    (hm : m.val = b.val * 2048 + s.val) :
    shapeCast ⟨2, ![8192, 4096]⟩ X h (ix2 m i) = X (ix3 b s i) :=
  shapeCast_apply X h _ _ (by
    rw [Shape.rowMajor_val_three, Shape.rowMajor_val_two]
    show (b.val * 2048 + s.val) * 4096 + i.val = m.val * 4096 + i.val
    rw [hm])

/-- Cutting the flat array back: entry (b, s, o) is entry (2048·b + s, o) of the flat array. -/
theorem unflatten_apply {α : Type} (Z : (⟨2, ![8192, 4096]⟩ : Shape).Idx → α)
    (h : (⟨2, ![8192, 4096]⟩ : Shape).ShapeCasts ⟨3, ![4, 2048, 4096]⟩) (b : Fin 4) (s : Fin 2048) (o : Fin 4096) (m : Fin 8192)
    (hm : m.val = b.val * 2048 + s.val) :
    shapeCast ⟨3, ![4, 2048, 4096]⟩ Z h (ix3 b s o) = Z (ix2 m o) :=
  shapeCast_apply Z h _ _ (by
    rw [Shape.rowMajor_val_two, Shape.rowMajor_val_three]
    show m.val * 4096 + o.val = (b.val * 2048 + s.val) * 4096 + o.val
    rw [hm])

/-- THE TWO KERNELS JOINED: the second kernel's output function, at the flattened activations and base output, A, the
    transposed B and the first kernel's column of scales laid down as a row, cut back to [4, 2048, 4096], is the result. -/
theorem joined (X Y : S4x2048x4096.Idx → Elt Ideal .f32) (W : S4096x4096.Idx → Elt Ideal .f32) (A : S8x4096.Idx → Elt Ideal .f32)
    (B : S4096x8.Idx → Elt Ideal .f32) (g : S4096.Idx → Elt Ideal .f32)
    (hflat : S4x2048x4096.ShapeCasts S8192x4096) (htr : S4096x8.Transposes [1, 0] S8x4096) (hcol : S4096.ShapeCasts S4096x1)
    (hrow : S4096x1.ShapeCasts S1x4096) (hback : S8192x4096.ShapeCasts S4x2048x4096) :
    shapeCast S4x2048x4096
        (Cert.Dora.MainBlocks.output (shapeCast S8192x4096 X hflat) (shapeCast S8192x4096 Y hflat) A (transpose S8x4096 [1, 0] B htr)
          (shapeCast S1x4096 (Cert.Dora.NormBlocks.scales W A B (shapeCast S4096x1 g hcol)) hrow)) hback
      = Cert.Dora.result X Y W A B g := by
  funext j
  obtain ⟨b, s, o, rfl⟩ : ∃ (b : Fin 4) (s : Fin 2048) (o : Fin 4096), j = ix3 b s o := ⟨j 0, j 1, j 2, eq_ix3 j⟩
  have hb := b.isLt
  have hs := s.isLt
  let m : Fin 8192 := ⟨b.val * 2048 + s.val, by omega⟩
  have hm : m.val = b.val * 2048 + s.val := rfl
  rw [unflatten_apply _ hback b s o m hm, Cert.Dora.result_ix3]
  show Cert.Dora.MainBlocks.flat _ _ _ _ _ m o = _
  unfold Cert.Dora.MainBlocks.flat Cert.Dora.resultAt Cert.Dora.lowRank
  rw [flatten_apply Y hflat b s o m hm, Cert.Lib.ColRow.shapeCast_col_row_apply]
  show (_ + _ * Cert.Dora.two) * Cert.Dora.rowScale W A B o (shapeCast S4096x1 g hcol (ix2 o (0 : Fin 1))) = _
  rw [shapeCast_a_a1_apply]
  refine congrArg (fun t : EReal => (_ + t * Cert.Dora.two) * _) (Finset.sum_congr rfl fun r _ => ?_)
  rw [transpose_ix2_apply]
  refine congrArg (fun t : EReal => t * _) (Finset.sum_congr rfl fun i _ => ?_)
  rw [flatten_apply X hflat b s i m hm]

end Cert.Dora.Layout

end
-- ==== Proof.KernelRun.lean ====
/-
  The kernel program's run, with its result named, and the result read.

  @main is five segments: the magnitudes stood up as a column; the first kernel; the column laid down as a row, the
  activations and the base output flattened, B transposed; the second kernel; the flat output cut back.  Every weakly fair
  execution ends with each unscoped buffer at the contents the segments leave in order, so the result buffer ends at the
  last segment's contents and the arguments as launched.  Walking those contents back segment by segment — a host
  operation's buffer is its function of its operands' buffers, a kernel's output array is what its blocks tile, a buffer no
  segment writes is as before — the result buffer holds the two kernels joined at the launch arrays: the result.
-/
import proofs.«118239_j14869176779243_2_alg».proof.Proof.Gen.KernelIdeal.Frame
import proofs.«118239_j14869176779243_2_alg».proof.Proof.NormBlocks
import proofs.«118239_j14869176779243_2_alg».proof.Proof.MainBlocks
import proofs.«118239_j14869176779243_2_alg».proof.Proof.Layout
import Idealize.ShloMosaic.Lib.StableHlo.Run

set_option maxRecDepth 16384

noncomputable section

namespace Cert.Dora.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, THE RESULT NAMED: every weakly fair execution of @main terminates, nothing faulting, with the result buffer at
    the last segment's contents and the argument arrays as launched. -/
theorem run_named : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Run

/-! ## The contents walked back, on the extended reals -/

variable (m : (ℓ : Loc nD τ sig) → Buf (Elt Ideal) ℓ) (ρ : Dev nD → PrngReg)

/-! Entering the first kernel: the arguments as launched, the magnitudes stood up as a column. -/

theorem V1_arg2 (c : Dev nD) : V1 m ρ c main_arg2 = m ((c : Thread nD τ).loc main_arg2) := by
  show StableHlo.after hostOps0 (W0 m ρ c) (Proc.devRef .tc main_arg2) = _
  after_results <;> rfl
theorem V1_arg3 (c : Dev nD) : V1 m ρ c main_arg3 = m ((c : Thread nD τ).loc main_arg3) := by
  show StableHlo.after hostOps0 (W0 m ρ c) (Proc.devRef .tc main_arg3) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl
theorem V1_arg0 (c : Dev nD) : V1 m ρ c main_arg0 = m ((c : Thread nD τ).loc main_arg0) := by
  show StableHlo.after hostOps0 (W0 m ρ c) (Proc.devRef .tc main_arg0) = _
  after_results <;> rfl
theorem V1_arg1 (c : Dev nD) : V1 m ρ c main_arg1 = m ((c : Thread nD τ).loc main_arg1) := by
  show StableHlo.after hostOps0 (W0 m ρ c) (Proc.devRef .tc main_arg1) = _
  after_results <;> rfl
theorem V1_v0 (c : Dev nD) :
    V1 m ρ c main_v0 = shapeCast S4096x1 (m ((c : Thread nD τ).loc main_arg5)) shapeCasts_S4096_S4096x1 := by
  show StableHlo.after hostOps0 (W0 m ρ c) (Proc.devRef .tc main_v0) = _
  after_results <;> rfl

/-! Leaving the first kernel: its output column holds every channel's scale; what it only reads, or does not touch, is as
    it was. -/

theorem W2_v1 (c : Dev nD) :
    W2 m ρ c (Proc.devRef .tc main_v1)
      = Cert.Dora.NormBlocks.scales (m ((c : Thread nD τ).loc main_arg2)) (m ((c : Thread nD τ).loc main_arg3))
          (m ((c : Thread nD τ).loc main_arg4)) (shapeCast S4096x1 (m ((c : Thread nD τ).loc main_arg5)) shapeCasts_S4096_S4096x1) := by
  refine (W2_arr m ρ c 4).trans ((Cert.Dora.NormBlocks.column_eq (V1 m ρ) c).trans ?_)
  rw [V1_arg2, V1_arg3, V1_arg4, V1_v0]
theorem W2_arg0 (c : Dev nD) : W2 m ρ c (Proc.devRef .tc main_arg0) = m ((c : Thread nD τ).loc main_arg0) :=
  (W2_of_ne m ρ c main_arg0 (by decide)).trans (V1_arg0 m ρ c)
theorem W2_arg1 (c : Dev nD) : W2 m ρ c (Proc.devRef .tc main_arg1) = m ((c : Thread nD τ).loc main_arg1) :=
  (W2_of_ne m ρ c main_arg1 (by decide)).trans (V1_arg1 m ρ c)
theorem W2_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (V1_arg3 m ρ c)
theorem W2_arg4 (c : Dev nD) : W2 m ρ c (Proc.devRef .tc main_arg4) = m ((c : Thread nD τ).loc main_arg4) :=
  ((W2_arr m ρ c 2).trans (((dat0 (V1 m ρ) c).arrAt_in 2 rfl _).trans (A_eq0 (V1 m ρ) c 2))).trans (V1_arg4 m ρ c)

/-! Entering the second kernel: the column laid down as a row, the two big arrays flattened, B transposed, A as it was. -/

theorem V3_v2 (c : Dev nD) :
    V3 m ρ c main_v2 = shapeCast S1x4096 (W2 m ρ c (Proc.devRef .tc main_v1)) shapeCasts_S4096x1_S1x4096 := by
  show StableHlo.after hostOps1 (W2 m ρ c) (Proc.devRef .tc main_v2) = _
  after_results <;> rfl
theorem V3_v3 (c : Dev nD) :
    V3 m ρ c main_v3 = shapeCast S8192x4096 (W2 m ρ c (Proc.devRef .tc main_arg0)) shapeCasts_S4x2048x4096_S8192x4096 := by
  show StableHlo.after hostOps1 (W2 m ρ c) (Proc.devRef .tc main_v3) = _
  after_results <;> rfl
theorem V3_v4 (c : Dev nD) :
    V3 m ρ c main_v4 = shapeCast S8192x4096 (W2 m ρ c (Proc.devRef .tc main_arg1)) shapeCasts_S4x2048x4096_S8192x4096 := by
  show StableHlo.after hostOps1 (W2 m ρ c) (Proc.devRef .tc main_v4) = _
  after_results <;> rfl
theorem V3_v5 (c : Dev nD) :
    V3 m ρ c main_v5 = transpose S8x4096 [1, 0] (W2 m ρ c (Proc.devRef .tc main_arg4)) transposes_S4096x8_S8x4096_1_0 := by
  show StableHlo.after hostOps1 (W2 m ρ c) (Proc.devRef .tc main_v5) = _
  after_results <;> rfl
theorem V3_arg3 (c : Dev nD) : V3 m ρ c main_arg3 = W2 m ρ c (Proc.devRef .tc main_arg3) := by
  show StableHlo.after hostOps1 (W2 m ρ c) (Proc.devRef .tc main_arg3) = _
  after_results <;> rfl

/-- THE RESULT BUFFER'S LAST CONTENTS ARE THE RESULT of the launch arrays. -/
theorem result_value (c : Dev nD) :
    W5 m ρ c (Proc.devRef .tc main_v7)
      = Cert.Dora.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have h5 : W5 m ρ c (Proc.devRef .tc main_v7)
      = shapeCast S4x2048x4096 (W4 m ρ c (Proc.devRef .tc main_v6)) shapeCasts_S8192x4096_S4x2048x4096 := by
    show StableHlo.after hostOps2 (W4 m ρ c) (Proc.devRef .tc main_v7) = _
    after_results <;> rfl
  have h4 : W4 m ρ c (Proc.devRef .tc main_v6)
      = Cert.Dora.MainBlocks.output (V3 m ρ c main_v3) (V3 m ρ c main_v4) (V3 m ρ c main_arg3) (V3 m ρ c main_v5) (V3 m ρ c main_v2) :=
    (W4_arr m ρ c 5).trans (Cert.Dora.MainBlocks.output_eq (V3 m ρ) c)
  rw [h5, h4, V3_v2, V3_v3, V3_v4, V3_v5, V3_arg3, W2_v1, W2_arg0, W2_arg1, W2_arg3, W2_arg4]
  exact Cert.Dora.Layout.joined _ _ _ _ _ _ _ _ _ _ _

/-- THE KERNEL PROGRAM'S RUN, READ: the result buffer ends at the result of the launch arrays, the arguments as launched. -/
theorem run : θ_run defs (onTc (τ := τ) (main (F := Ideal))) ⟨m, fun _ => 0, ρ⟩ (fun r => ∀ c : Dev nD,
      r.2.mem ((c.tc : Thread nD τ).loc main_v7)
        = Cert.Dora.result (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (run_named m ρ)

end Cert.Dora.KernelRun

end
-- ==== Proof.RefValue.lean ====
/-
  The reference program computes the result.

  Read one operation at a time at an index, the reference's last value at (b, s, o) is
  (Y[b,s,o] + (∑ k, (∑ i, X[b,s,i]·A[k,i])·B[o,k])·2) · (g[o] / (√(0 + ∑ i, U[o,i]·U[o,i]) + ε)) with
  U[o,i] = W[o,i] + (∑ r, B[o,r]·A[r,i])·2: the two contractions, the broadcast constants and the two broadcasts of the scale
  each read their operands at the coordinates written here, and a sum started from zero is the sum.
-/
import proofs.«118239_j14869176779243_2_alg».proof.Proof.Gen.ReferenceIdeal.Read
import proofs.«118239_j14869176779243_2_alg».proof.Proof.Spec

noncomputable section

open scoped BigOperators

namespace Cert.Dora.RefValue

open Idealize.ShloMosaic Idealize.ShloMosaic.ValueIdx Cert.ReferenceIdeal Cert.ReferenceIdeal.Read

/-! The coordinates each operation reads its operands at. -/

theorem lowrank_lhs (b : Fin 4) (s : Fin 2048) (o : Fin 4096) (k : Fin 8) : lidx_main_v1 (ix3 b s o) k = ix3 b s k :=
  funext fun a => Fin.ext (by match a with | ⟨0, _⟩ => rfl | ⟨1, _⟩ => rfl | ⟨2, _⟩ => rfl)
theorem lowrank_rhs (b : Fin 4) (s : Fin 2048) (o : Fin 4096) (k : Fin 8) : ridx_main_v1 (ix3 b s o) k = ix2 o k :=
  funext fun a => Fin.ext (by match a with | ⟨0, _⟩ => rfl | ⟨1, _⟩ => rfl)
theorem down_lhs (b : Fin 4) (s : Fin 2048) (k : Fin 8) (i : Fin 4096) : lidx_main_v0 (ix3 b s k) i = ix3 b s i :=
  funext fun a => Fin.ext (by match a with | ⟨0, _⟩ => rfl | ⟨1, _⟩ => rfl | ⟨2, _⟩ => rfl)
theorem down_rhs (b : Fin 4) (s : Fin 2048) (k : Fin 8) (i : Fin 4096) : ridx_main_v0 (ix3 b s k) i = ix2 k i :=
  funext fun a => Fin.ext (by match a with | ⟨0, _⟩ => rfl | ⟨1, _⟩ => rfl)
theorem scale_unit (b : Fin 4) (s : Fin 2048) (o : Fin 4096) : idx_main_v13 (idx_main_v14 (ix3 b s o)) = ix1 o :=
  funext fun a => Fin.ext (by match a with | ⟨0, _⟩ => rfl)
theorem row_entry (o : Fin 4096) (i : Fin 4096) : idx_main_call0_v1 (ix1 o) i = ix2 o i :=
  funext fun a => Fin.ext (by match a with | ⟨0, _⟩ => rfl | ⟨1, _⟩ => rfl)
theorem delta_lhs (o i : Fin 4096) (r : Fin 8) : lidx_main_v4 (ix2 o i) r = ix2 o r :=
  funext fun a => Fin.ext (by match a with | ⟨0, _⟩ => rfl | ⟨1, _⟩ => rfl)
theorem delta_rhs (o i : Fin 4096) (r : Fin 8) : ridx_main_v4 (ix2 o i) r = ix2 r i :=
  funext fun a => Fin.ext (by match a with | ⟨0, _⟩ => rfl | ⟨1, _⟩ => rfl)

/-- Entry (o, i) of the reference's updated weight. -/
theorem updated_apply (x2 : S4096x4096.Idx → EReal) (x3 : S8x4096.Idx → EReal) (x4 : S4096x8.Idx → EReal) (o i : Fin 4096) :
    val_main_v7 (F := Ideal) x2 x3 x4 (ix2 o i) = Cert.Dora.updated x2 x3 x4 o i := by
  rw [val_main_v7_apply, val_main_v6_apply, val_main_v4_apply, val_main_v5_apply, val_main_cst_0_apply]
  simp only [delta_lhs, delta_rhs]
  rfl

/-- The reference's scale of channel o. -/
theorem scale_apply (x2 : S4096x4096.Idx → EReal) (x3 : S8x4096.Idx → EReal) (x4 : S4096x8.Idx → EReal) (x5 : S4096.Idx → EReal)
    (o : Fin 4096) :
    val_main_v11 (F := Ideal) x2 x3 x4 x5 (ix1 o) = Cert.Dora.rowScale x2 x3 x4 o (x5 (ix1 o)) := by
  rw [val_main_v11_apply, val_main_v10_apply, val_main_v8_apply, val_main_call0_v1_apply, val_main_v9_apply,
    val_main_cst_1_apply, val_main_call0_cst_apply]
  simp only [val_main_call0_v0_apply, row_entry, updated_apply]
  show Ideal.div (x5 (ix1 o)) (Ideal.sqrt (Ideal.ofBits .f32 0x00000000#32 + _) + Cert.Dora.tiny) = _
  rw [Ideal.ofBits_zero_f32, zero_add]
  rfl

/-- THE REFERENCE'S LAST VALUE IS THE RESULT. -/
theorem reference_eq (x0 x1 : S4x2048x4096.Idx → EReal) (x2 : S4096x4096.Idx → EReal) (x3 : S8x4096.Idx → EReal)
    (x4 : S4096x8.Idx → EReal) (x5 : S4096.Idx → EReal) :
    val_main_v15 (F := Ideal) x0 x1 x2 x3 x4 x5 = Cert.Dora.result x0 x1 x2 x3 x4 x5 := by
  funext j
  obtain ⟨b, s, o, rfl⟩ : ∃ (b : Fin 4) (s : Fin 2048) (o : Fin 4096), j = ix3 b s o := ⟨j 0, j 1, j 2, eq_ix3 j⟩
  rw [Cert.Dora.result_ix3, val_main_v15_apply, val_main_v12_apply, val_main_v3_apply, val_main_v1_apply, val_main_v2_apply,
    val_main_cst_apply, val_main_v14_apply, val_main_v13_apply, scale_unit, scale_apply]
  simp only [lowrank_lhs, lowrank_rhs, val_main_v0_apply, down_lhs, down_rhs]
  rfl

end Cert.Dora.RefValue

end
-- ==== Proof.lean ====
/-
  A linear layer with a weight-decomposed rank-8 update, computed by two kernels, against a plain array program: the five claims.

  The result at (b, s, o) is (Y[b,s,o] + 2·∑ r, (∑ i, X[b,s,i]·A[r,i])·B[o,r]) · g[o] / (‖row o of W + 2·B A‖ + ε)  (Proof/Spec.lean).
  The kernel program computes the per-channel factor in a first kernel over blocks of 512 rows of W, and applies the low-rank
  path and the factor in a second kernel over blocks of 256 rows of the flattened activations; the reference computes the same
  with two contractions, the materialised updated weight and a broadcast.  On the extended reals the two agree entry by
  entry with no condition on the inputs: the only rearrangements are layout (flattening, a transpose, a column laid down as a
  row), a sum of eight terms added one at a time against the sum over the eight, a sum started from the zero word, and
  roundings to a shorter format, which are the identity there.

  * The kernel program's run with its result read: Proof/KernelRun.lean (over NormBody / NormBlocks for the first kernel,
    MainBody / MainBlocks for the second, Layout for the steps between them).
  * The reference's last value is the result: Proof/RefValue.lean.
  * The three frames are the programs' runs with the result dropped; no operation of the kernel program was rewritten for the
    idealized reading, so that claim is `True`.
-/
import proofs.«118239_j14869176779243_2_alg».proof.Defs
import proofs.«118239_j14869176779243_2_alg».proof.Proof.Gen.Kernel
import proofs.«118239_j14869176779243_2_alg».proof.Proof.Gen.Kernel.Skeleton
import proofs.«118239_j14869176779243_2_alg».proof.Proof.Gen.Kernel.Launch
import proofs.«118239_j14869176779243_2_alg».proof.Proof.Gen.Kernel.Points
import proofs.«118239_j14869176779243_2_alg».proof.Proof.Gen.Kernel.Frame
import proofs.«118239_j14869176779243_2_alg».proof.Proof.Gen.KernelIdeal
import proofs.«118239_j14869176779243_2_alg».proof.Proof.Gen.KernelIdeal.Skeleton
import proofs.«118239_j14869176779243_2_alg».proof.Proof.Gen.KernelIdeal.Launch
import proofs.«118239_j14869176779243_2_alg».proof.Proof.Gen.KernelIdeal.Points
import proofs.«118239_j14869176779243_2_alg».proof.Proof.Gen.KernelIdeal.Frame
import proofs.«118239_j14869176779243_2_alg».proof.Proof.Gen.ReferenceIdeal
import proofs.«118239_j14869176779243_2_alg».proof.Proof.Gen.ReferenceIdeal.Run
import proofs.«118239_j14869176779243_2_alg».proof.Proof.Gen.ReferenceIdeal.Read
import proofs.«118239_j14869176779243_2_alg».proof.Proof.Gen.Pre_finite_inputs
import proofs.«118239_j14869176779243_2_alg».proof.Proof.KernelRun
import proofs.«118239_j14869176779243_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the result of their (agreeing) argument arrays in their result buffer. -/
theorem algebraic : Cert.algebraic_KernelIdeal_ReferenceIdeal := by
  intro m ρ m' ρ' _ hagree
  refine ⟨_, Cert.Dora.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v15_eq, Cert.Dora.RefValue.reference_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
